-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S288x10000 : Shape := ⟨2, ![288, 10000]⟩
abbrev S288x128 : Shape := ⟨2, ![288, 128]⟩
abbrev S10080x128 : Shape := ⟨2, ![10080, 128]⟩

abbrev nBuf : Space → Nat
  | .hbm => 7
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S1x128, .f32⟩
  | .local _ .vmem, ⟨4, _⟩ => ⟨S288x10000, .f32⟩
  | .local _ .vmem, ⟨5, _⟩ => ⟨S288x10000, .f32⟩
  | .local _ .vmem, ⟨6, _⟩ => ⟨S288x128, .f32⟩
  | .local _ .vmem, ⟨7, _⟩ => ⟨S288x128, .f32⟩
  | .local _ .vmem, ⟨8, _⟩ => ⟨S10000x128, .f32⟩
  | .local _ .vmem, ⟨9, _⟩ => ⟨S10080x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![35], ![false]⟩

def k0_off1 (i : grid0.Coords) : Fin 2 → Nat :=
  let arg0 : BitVec 32 := BitVec.ofNat 32 (i 0).val
  let c288_i32 : BitVec 32 := 288#32
  let v6 : BitVec 32 := Scalar.muli arg0 c288_i32
  let v7 : Index := Scalar.indexCast v6
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S288x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S288x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10080x128_S10000x128_0_0 : ∀ a, (![0, 0] : Fin 2 → Nat) a + S10000x128.size a ≤ S10080x128.size a
  inb_S288x10000_S288x10000_0_0 : ∀ a, (![0, 0] : Fin 2 → Nat) a + S288x10000.size a ≤ S288x10000.size a
  h_S288x10000 : 0 < S288x10000.numel
  h_S288x128 : 0 < S288x128.numel
  inb_S288x128_S288x128_0_0 : ∀ a, (![0, 0] : Fin 2 → Nat) a + S288x128.size a ≤ S288x128.size a
  dot_S10000x128_S128x128_S10000x128_1_0_0_1_n_n_wf : DotDims.WF S10000x128 S128x128 S10000x128 [1] [0] [0] [1] [] []
  dot_S288x10000_S10000x128_S288x128_1_0_0_1_n_n_wf : DotDims.WF S288x10000 S10000x128 S288x128 [1] [0] [0] [1] [] []
  hrank0 : 0 < grid0.rank
  k0_off1_inb : ∀ i : grid0.Coords, ∀ a, (k0_off1 i) a + S288x128.size a ≤ S10080x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S288x10000.size a < S10000x10000.size a
  hwx0_4 : ∀ i : grid0.Coords, EltTy.bits .f32 = 32 ∨ (Rect.unit (s := S10000x10000) (fun a => cc0_transform_4 i a * S288x10000.size a) (fun a => (Pipeline.Clip.of (cc0_transform_4 i a) (S288x10000.size a) (S10000x10000.size a)).extent (S288x10000.size a)) fun a => Pipeline.Clip.inb (Pipeline.Clip.ok_of (hstart0_4 i a))).WholeWords (EltTy.packing .f32)
  hwxs0_4 : ∀ i : grid0.Coords, EltTy.bits .f32 = 32 ∨ (Rect.unit (s := S288x10000) (fun _ => 0) (fun a => (Pipeline.Clip.of (cc0_transform_4 i a) (S288x10000.size a) (S10000x10000.size a)).extent (S288x10000.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S288x128.size a < S10000x128.size a
  hwx0_5 : ∀ i : grid0.Coords, EltTy.bits .f32 = 32 ∨ (Rect.unit (s := S10000x128) (fun a => cc0_transform_5 i a * S288x128.size a) (fun a => (Pipeline.Clip.of (cc0_transform_5 i a) (S288x128.size a) (S10000x128.size a)).extent (S288x128.size a)) fun a => Pipeline.Clip.inb (Pipeline.Clip.ok_of (hstart0_5 i a))).WholeWords (EltTy.packing .f32)
  hwxs0_5 : ∀ i : grid0.Coords, EltTy.bits .f32 = 32 ∨ (Rect.unit (s := S288x128) (fun _ => 0) (fun a => (Pipeline.Clip.of (cc0_transform_5 i a) (S288x128.size a) (S10000x128.size a)).extent (S288x128.size a)) fun a => (Nat.zero_add _).trans_le (Pipeline.Clip.extent_le (Pipeline.Clip.ok_of (hstart0_5 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S288x10000_S10000x128_S288x128_1_0_0_1_n_n : DotDims S288x10000 S10000x128 S288x128 where
  lhsContracting := [1]
  rhsContracting := [0]
  lhsNonContracting := [0]
  rhsNonContracting := [1]
  lhsBatch := []
  rhsBatch := []
  wf := dot_S288x10000_S10000x128_S288x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_arg1) S288x10000.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v1) S288x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KRuns.lean ====
/-
  The kernel body of the graph-convolution kernel, run once per control case, at any float instance.

  The body sees six staged blocks and two scratch arrays. At the grid's first point it computes the two
  products that every later point needs — the support `x · W` into the first scratch, and the self-loop term
  `x · W_loop + bias` into the first 10000 rows of the second scratch (which has 10080 rows, 35 blocks of 288:
  its last 80 rows are never written) — and at every point it stores, into the output block, the product of the
  adjacency block with the support plus the 288 rows of the second scratch that start at 288 times the point.
  Here: the pure functions those stores compute, how a buffer reads after them, and the two runs.
-/
import proofs.«172737_g28991029248529_cont_9to1_2130_16_alg».proof.Proof.Gen.Kernel.Frame
import proofs.«172737_g28991029248529_cont_9to1_2130_16_alg».proof.Proof.Gen.Kernel.Skeleton
import Idealize.ShloMosaic.Lib.WholeRead
import Idealize.ShloMosaic.Lib.WritesUnit
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

/-! ## The branch -/

/-- The body's one condition, from the grid coordinate: "this is the first point". -/
abbrev cond0 (i : grid0.Coords) : Prop :=
  (Scalar.cmpi .ne (Scalar.extui (Scalar.cmpi .eq (BitVec.ofNat 32 (i 0).val) 0#32)) 0#32) = 1#1

/-- It holds at point 0 and at no other of the 35. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → ℕ) = fun _ => 0 := funext fun a => by fin_cases a <;> rfl

/-! ## What the stores compute -/

/-- The 288 rows of the second scratch the point at coordinates `i` adds in: rows `288 i ‥ 288 i + 287`. -/
def rowsAt (i : grid0.Coords) (L : Vec F S10080x128 .f32) : Vec F S288x128 .f32 :=
  View.ld L (Rect.unit (s := S10080x128) (k0_off1 i) S288x128.size (k0_off1_inb i))

/-- The output block at coordinates `i`: the adjacency block times the support, plus those rows. -/
def outPay (i : grid0.Coords) (a : Vec F S288x10000 .f32) (S : Vec F S10000x128 .f32) (L : Vec F S10080x128 .f32) :
    Vec F S288x128 .f32 :=
  k0_pay3 a S (rowsAt i L)

/-- The second scratch after the first point's store: rows below 10000 from the stored value, the others as before. -/
def over (P : Vec F S10000x128 .f32) (g : Vec F S10080x128 .f32) : Vec F S10080x128 .f32 :=
  fun y => if h : 0 ≤ (y (0 : Fin 2)).val ∧ (y (0 : Fin 2)).val < 0 + 10000 then
      P (Rect.unitLocal (s := S10080x128) (off := ![0, 0]) (size := S10000x128.size) y (Rect.unit_rows_mem y rfl rfl h))
    else g y

/-! ## Reading a buffer after whole loads and stores -/

section Reads

variable {S : Shape} {sp : Space}

/-- A load of a whole buffer through the zero-offset rectangle of its own sizes reads its contents. -/
theorem readAt_whole {m : Memref sig .tc sp S .f32} (h : m.IsWhole) {off : Fin S.rank → ℕ} (hz : off = fun _ => 0)
    (inb : ∀ a, off a + S.size a ≤ S.size a) (X : S.Idx → Elt F .f32) :
    View.readAt (Elt F) m.view (Rect.unit (s := S) off S.size inb).toLoadRect (h.unread X) = X := by
  funext x
  rw [h.readAt_unread]
  exact congrFun (View.ld_unit_zero hz inb X) x

/-- One store through that rectangle leaves its payload. -/
theorem read_store_whole (v : View sig .tc sp S .f32) (f : v.ty.Contents (Elt F)) {off : Fin S.rank → ℕ} (hz : off = fun _ => 0)
    (inb : ∀ a, off a + S.size a ≤ S.size a) (w : S.Idx → Elt F .f32) :
    v.read (Elt F) (v.writes (Elt F) f [(⟨Rect.unit (s := S) off S.size inb, w⟩ : View.Piece (Elt F) S .f32)]) = w := by
  subst hz; exact View.read_writes_whole v f w

end Reads

/-- The load at the point's offset reads the point's rows of whatever the buffer reads. -/
theorem readAt_rows (m : Memref sig .tc .vmem S10080x128 .f32) (i : grid0.Coords) (inb) (f : m.view.ty.Contents (Elt F)) :
    View.readAt (Elt F) m.view (Rect.unit (s := S10080x128) (k0_off1 i) S288x128.size inb).toLoadRect f
      = rowsAt i (m.view.read (Elt F) f) := rfl

/-- The store of 10000 rows into the 10080-row scratch leaves `over`. -/
theorem read_over {m : Memref sig .tc .vmem S10080x128 .f32} (h : m.IsWhole) (w : Vec F S10000x128 .f32) (g : Vec F S10080x128 .f32) :
    m.view.read (Elt F) (m.view.writes (Elt F) (h.unread g)
      [(⟨Rect.unit (s := S10080x128) ![0, 0] S10000x128.size inb_S10080x128_S10000x128_0_0, w⟩ : View.Piece (Elt F) S10080x128 .f32)])
      = over w g := by
  funext y
  rw [View.read_writes_cons_rows (W := 10000) m.view _ inb_S10080x128_S10000x128_0_0 w [] y rfl rfl rfl]
  unfold over
  by_cases hc : 0 ≤ (y (0 : Fin 2)).val ∧ (y (0 : Fin 2)).val < 0 + 10000
  · rw [dif_pos hc, dif_pos hc]
  · rw [dif_neg hc, dif_neg hc, View.writes_nil]; exact congrFun (h.read_unread g) y

/-! ## The two runs -/

set_option maxHeartbeats 1000000 in
/-- At a point that is NOT the first: the six staged buffers and the two scratch arrays at any contents; the body
    leaves the output buffer at `outPay` of the adjacency buffer and the scratch arrays, everything else as it was. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S288x10000 .f32) (harg5 : arg5.IsWhole) (arg6 : Memref sig .tc .vmem S288x128 .f32) (harg6 : arg6.IsWhole)
    (arg7 : Memref sig .tc .vmem S10000x128 .f32) (harg7 : arg7.IsWhole) (arg8 : Memref sig .tc .vmem S10080x128 .f32) (harg8 : arg8.IsWhole)
    (hc0 : ¬cond0 i)
    (x1 : Vec F S10000x128 .f32) (x2 : Vec F S128x128 .f32) (x3 : Vec F S128x128 .f32) (x4 : Vec F S1x128 .f32) (x5 : Vec F S288x10000 .f32)
    (xs0 : Vec F S10000x128 .f32) (xs1 : Vec F S10080x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outPay i x5 xs0 xs1)
            ∗ owns (c : Thread nD τ) arg7 fullShare xs0 ∗ owns (c : Thread nD τ) arg8 fullShare xs1) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, %hf6, H6⟩, ⟨%fs0, %hfs0, HS0⟩, ⟨%fs1, %hfs1, HS1⟩, Hk⟩
  obtain rfl := harg1.eq_unread hf1; obtain rfl := harg2.eq_unread hf2; obtain rfl := harg3.eq_unread hf3
  obtain rfl := harg4.eq_unread hf4; obtain rfl := harg5.eq_unread hf5
  obtain rfl := harg7.eq_unread hfs0; obtain rfl := harg8.eq_unread hfs1
  sl_exec (disch := first | exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_store_whole _ _ hz2, readAt_whole harg5 hz2, readAt_whole harg7 hz2, readAt_rows, harg8.read_unread]
    rfl
  isplitl [HS0]
  · iexists _; isplitr; · ipureintro; exact harg7.read_unread _
    iexact HS0
  · iexists _; isplitr; · ipureintro; exact harg8.read_unread _
    iexact HS1

set_option maxHeartbeats 2000000 in
/-- At the FIRST point: the body also fills the first scratch with `k0_pay1` of the feature and weight buffers and the
    first 10000 rows of the second with `k0_pay2` of the feature, loop-weight and bias buffers, and the output block is
    `outPay` over the scratch arrays as it has just left them. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S288x10000 .f32) (harg5 : arg5.IsWhole) (arg6 : Memref sig .tc .vmem S288x128 .f32) (harg6 : arg6.IsWhole)
    (arg7 : Memref sig .tc .vmem S10000x128 .f32) (harg7 : arg7.IsWhole) (arg8 : Memref sig .tc .vmem S10080x128 .f32) (harg8 : arg8.IsWhole)
    (hc0 : cond0 i)
    (x1 : Vec F S10000x128 .f32) (x2 : Vec F S128x128 .f32) (x3 : Vec F S128x128 .f32) (x4 : Vec F S1x128 .f32) (x5 : Vec F S288x10000 .f32)
    (xs0 : Vec F S10000x128 .f32) (xs1 : Vec F S10080x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outPay i x5 (k0_pay1 x1 x2) (over (k0_pay2 x1 x3 x4) xs1))
            ∗ owns (c : Thread nD τ) arg7 fullShare (k0_pay1 x1 x2)
            ∗ owns (c : Thread nD τ) arg8 fullShare (over (k0_pay2 x1 x3 x4) xs1)) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, %hf6, H6⟩, ⟨%fs0, %hfs0, HS0⟩, ⟨%fs1, %hfs1, HS1⟩, Hk⟩
  obtain rfl := harg1.eq_unread hf1; obtain rfl := harg2.eq_unread hf2; obtain rfl := harg3.eq_unread hf3
  obtain rfl := harg4.eq_unread hf4; obtain rfl := harg5.eq_unread hf5
  obtain rfl := harg7.eq_unread hfs0; obtain rfl := harg8.eq_unread hfs1
  sl_exec (disch := first | exact hc0)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_store_whole _ _ hz2, readAt_whole harg5 hz2, View.readCov_unit_zero _ hz2, readAt_whole harg1 hz2,
      readAt_whole harg2 hz2, readAt_whole harg3 hz2, readAt_whole harg4 hz2, readAt_rows, read_over harg8]
    rfl
  isplitl [HS0]
  · iexists _; isplitr
    swap; · iexact HS0
    ipureintro
    rw [read_store_whole _ _ hz2, readAt_whole harg1 hz2, readAt_whole harg2 hz2]
  · iexists _; isplitr
    swap; · iexact HS1
    ipureintro
    rw [readAt_whole harg1 hz2, readAt_whole harg3 hz2, readAt_whole harg4 hz2, read_over harg8]

end Cert.Kernel.Body

end
-- ==== Proof.KData.lean ====
/-
  The proof data of the graph-convolution kernel's one pipeline, and its run, at any float instance.

  Between grid points the kernel carries two scratch arrays. After the first point the first holds the support
  `x · W` and the second holds `x · W_loop + bias` on its first 10000 rows; its last 80 rows are whatever the
  allocation held, so the invariant states them existentially. Windows 4 (the adjacency rows) and 5 (the result
  rows) overhang their arrays at the last point (35 blocks of 288 rows over 10000): there the fetch leaves rows
  208‥287 of the adjacency buffer at values nothing names, the body computes result rows from them, and the
  write-back drops those rows; so both windows are stated on the rows inside the array only.

  One run of the body per point (`point_run`) serves two obligations: one that says nothing of the result buffer
  (enough for "the argument arrays end unchanged"), and an exact one, which needs that a result row inside the
  array does not depend on the rows outside it (`hloc`: proved where the float operations are exact).
-/
import proofs.«172737_g28991029248529_cont_9to1_2130_16_alg».proof.Proof.KRuns
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names -/

/-- The grid's first point. -/
abbrev t₀ : Fin cfg0.N := ⟨0, by decide⟩

/-- The two scratch arrays as memrefs. -/
abbrev scM0 : Memref sig .tc .vmem S10000x128 .f32 := Memref.whole cc0_scratch0
abbrev scM1 : Memref sig .tc .vmem S10080x128 .f32 := Memref.whole cc0_scratch1

/-- The class invariant with the scratch arrays as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The support `x · W`, from the feature and weight blocks the first point finds. -/
def supp (c : Dev nD) : Vec F S10000x128 .f32 := k0_pay1 (iblk m c 0 t₀) (iblk m c 1 t₀)

/-- The self-loop term `x · W_loop + bias`, from the feature, loop-weight and bias blocks the first point finds. -/
def selfTerm (c : Dev nD) : Vec F S10000x128 .f32 := k0_pay2 (iblk m c 0 t₀) (iblk m c 2 t₀) (iblk m c 3 t₀)

/-- The adjacency buffer at point `t`: its block on the rows inside the array, zero past them (never read back). -/
def adjBlk (c : Dev nD) (t : Fin cfg0.N) : Vec F S288x10000 .f32 :=
  win0_4.fill (grid0.coords t) (fun _ => Scalar.ofBits .f32 0#32) (iblk m c 4 t)

/-- The result buffer at point `t`, named at those fillers. -/
def outBlk (c : Dev nD) (t : Fin cfg0.N) : Vec F S288x128 .f32 :=
  outPay (grid0.coords t) (adjBlk m c t) (supp m c) (over (selfTerm m c) (fun _ => Scalar.ofBits .f32 0#32))

/-! ## The invariant -/

/-- Before point `n`: at first the class invariant (both scratch arrays at anything); afterwards the first scratch at
    the support and the second at the self-loop term on its first 10000 rows. -/
def PhiS (c : Dev nD) : (n : ℕ) → n ≤ cfg0.N → sProp 𝕄
  | 0, _ => Pipeline.ΦA spec0 c
  | _ + 1, _ => iprop(iprop(owns (c : Thread nD τ) scM0 fullShare (supp m c)
      ∗ (∃ g, owns (c : Thread nD τ) scM1 fullShare (over (selfTerm m c) g))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (supp m c)
      ∗ (∃ g, owns (c : Thread nD τ) scM1 fullShare (over (selfTerm m c) g))) ∗ (∃ r, prngReg c r)) := rfl

theorem PhiS_pos (c : Dev nD) (n : ℕ) (h : n ≤ cfg0.N) (hz : n ≠ 0) :
    PhiS m c n h = iprop(iprop(owns (c : Thread nD τ) scM0 fullShare (supp m c)
      ∗ (∃ g, owns (c : Thread nD τ) scM1 fullShare (over (selfTerm m c) g))) ∗ (∃ r, prngReg c r)) := by
  cases n with
  | zero => exact absurd rfl hz
  | succ n => rfl

/-! ## The proof data -/

/-- The arrays as the region finds them; after the body each input buffer at its block (the adjacency's filled out),
    the result's at `outBlk`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => adjBlk m c t
    | ⟨5, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = adjBlk m c t := by dsimp only [dats]
theorem after0_5 (c : Dev nD) (t : Fin cfg0.N) : (dats m 0 c).after 5 t = outBlk m c t := by dsimp only [dats]

/-- The four resident inputs are found at their blocks at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The adjacency buffer is fetched at every point: its block on the rows inside the array, `d` past them. -/
theorem before0_4 (c : Dev nD) (t : Fin cfg0.N) (d) :
    (dats m 0 c).before 4 t d = win0_4.fill (grid0.coords t) d (iblk m c 4 t) := by
  unfold Dat.before; rw [if_pos (fetch0_4 t)]; unfold Dat.fetched Dat.blockOf iblk; rw [A_eq]; try rfl

/-! ## The body at a point -/

/-- What the body is called with at point `t`: the result buffer at anything. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- What it returns: for some filler `d4` of the adjacency buffer and some tail `g` of the second scratch, the
    invariant's parts at `g`, the inputs in place, and the result buffer at `outPay` of exactly those. -/
def pointPost (c : Dev nD) (t : Fin cfg0.N) : sProp 𝕄 :=
  iprop(∃ d4 g, (iprop(owns (c : Thread nD τ) scM0 fullShare (supp m c) ∗ owns (c : Thread nD τ) scM1 fullShare (over (selfTerm m c) g))
      ∗ (∃ r, prngReg c r))
    ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (win0_4.fill (grid0.coords t) d4 (iblk m c 4 t))
    ∗ owns (c : Thread nD τ) (st0_5 t) fullShare
        (outPay (grid0.coords t) (win0_4.fill (grid0.coords t) d4 (iblk m c 4 t)) (supp m c) (over (selfTerm m c) g)))

set_option maxHeartbeats 4000000 in
/-- The body at any point: at the first it fills the scratch arrays from the blocks it finds (`run_first`), at the
    others it finds them as the invariant says (`run_later`); either way the result buffer is `outPay` of the
    adjacency buffer and the scratch arrays as they then are. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [before0_0, before0_1, before0_2, before0_3, before0_4]
  by_cases hz : t.val = 0
  · have hc : cond0 (grid0.coords t) := (hcond0 t).mpr hz
    have ht : t = t₀ := Fin.ext hz
    rw [PhiS_castSucc m c t, PhiS_zero m c _ _ hz, PhiA_eq]
    iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%X5, H5⟩⟩
    iapply (run_first (F := F) c (grid0.coords t) _ _ _ _ _ _ _ _ _ _ _ _ _ _ _ _ hc
      (iblk m c 0 t) (iblk m c 1 t) (iblk m c 2 t) (iblk m c 3 t) (win0_4.fill (grid0.coords t) d4 (iblk m c 4 t)) xs0 xs1 Set.univ _)
    isplitl [H0]; · iexact H0
    isplitl [H1]; · iexact H1
    isplitl [H2]; · iexact H2
    isplitl [H3]; · iexact H3
    isplitl [H4]; · iexact H4
    isplitl [H5]; · iexists X5; iexact H5
    isplitl [HS0]; · iexact HS0
    isplitl [HS1]; · iexact HS1
    iintro ⟨H0, H1, H2, H3, H4, H5, HS0, HS1⟩
    iexists d4; iexists xs1
    unfold supp selfTerm
    subst ht
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc : ¬cond0 (grid0.coords t) := fun h => hz ((hcond0 t).mp h)
    rw [PhiS_castSucc m c t, PhiS_pos m c _ _ hz]
    iintro ⟨⟨⟨HS0, ⟨%g, HS1⟩⟩, Hg⟩, Ho, ⟨%d0, H0⟩, ⟨%d1, H1⟩, ⟨%d2, H2⟩, ⟨%d3, H3⟩, ⟨%d4, H4⟩, ⟨%X5, H5⟩⟩
    iapply (run_later (F := F) c (grid0.coords t) _ _ _ _ _ _ _ _ _ _ _ _ _ _ _ _ hc
      (iblk m c 0 t) (iblk m c 1 t) (iblk m c 2 t) (iblk m c 3 t) (win0_4.fill (grid0.coords t) d4 (iblk m c 4 t))
      (supp m c) (over (selfTerm m c) g) Set.univ _)
    isplitl [H0]; · iexact H0
    isplitl [H1]; · iexact H1
    isplitl [H2]; · iexact H2
    isplitl [H3]; · iexact H3
    isplitl [H4]; · iexact H4
    isplitl [H5]; · iexists X5; iexact H5
    isplitl [HS0]; · iexact HS0
    isplitl [HS1]; · iexact HS1
    iintro ⟨H0, H1, H2, H3, H4, H5, HS0, HS1⟩
    iexists d4; iexists g
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

end Cert.Kernel.Body

end
-- ==== Proof.KFrame.lean ====
/-
  The two body obligations of the graph-convolution kernel's pipeline, its runs, and the frame.

  Both obligations are `point_run` with its post weakened. The forgetting one hands the result buffer back at
  anything, which is all that "the argument arrays end unchanged" needs, and holds at every float instance.
  The exact one hands it back agreeing with `outBlk` on the rows inside the array, given that such a row of the
  result does not depend on the adjacency rows past the array's end nor on the second scratch's unwritten tail.
-/
import proofs.«172737_g28991029248529_cont_9to1_2130_16_alg».proof.Proof.KData
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents the frame does not read: the result's. -/
abbrev fgt5 : Fin 6 → Bool := fun | 0 => false | 1 => false | 2 => false | 3 => false | 4 => false | 5 => true | ⟨_ + 6, h⟩ => absurd h (Nat.not_lt.2 (Nat.le_add_left _ _))

/-- The adjacency buffer's rows inside the array, of the named filling: its block. -/
theorem cut_adjBlk (c : Dev nD) (t : Fin cfg0.N) : win0_4.cut (grid0.coords t) (adjBlk m c t) = iblk m c 4 t :=
  win0_4.cut_fill _ _ _

set_option maxHeartbeats 1000000 in
/-- The obligation that forgets the result buffer. -/
theorem body_obligation_forget (c : Dev nD) :
    BodyObligationLoose (dats (F := F) m 0 c) (defs₀ (F := F)) Variants.none () Set.univ fgt5 := fun t => by
  rw [bigSep_W0, bigSep_W0]
  simp only [fgt5]
  refine (point_run m c t).trans (wp_mono _ _ _ fun _ => ?_)
  unfold pointPost
  rw [show (dats m 0 c).Φ t.succ = PhiS m c (t.val + 1) t.isLt from rfl, PhiS_succ,
    show (dats m 0 c).owesAt () t.succ = (dats m 0 c).owesAt () t.castSucc from rfl,
    after0_0, after0_1, after0_2, after0_3, after0_4]
  iintro ⟨%d4, %g, ⟨⟨HS0, HS1⟩, Hg⟩, Ho, H0, H1, H2, H3, H4, H5⟩
  isplitl [HS0 HS1 Hg]
  · isplitl [HS0 HS1]
    · isplitl [HS0]; · iexact HS0
      iexists g; iexact HS1
    iexact Hg
  isplitl [Ho]; · iexact Ho
  isplitl [H0]; · iexact H0
  isplitl [H1]; · iexact H1
  isplitl [H2]; · iexact H2
  isplitl [H3]; · iexact H3
  isplitl [H4]
  · iexists d4
    change _ ⊢ owns (c : Thread nD τ) (st0_4 t) fullShare (win0_4.fill (grid0.coords t) d4 (win0_4.cut (grid0.coords t) (adjBlk m c t)))
    rw [cut_adjBlk]; try iexact H4
  · iexists _; iexact H5

set_option maxHeartbeats 1000000 in
/-- The exact obligation, given that the result's rows inside the array depend on neither filler. -/
theorem body_obligation_exact (c : Dev nD)
    (hloc : ∀ (t : Fin cfg0.N) (d4 : S288x10000.Idx → Elt F .f32) (g : S10080x128.Idx → Elt F .f32),
      win0_5.cut (grid0.coords t) (outPay (grid0.coords t) (win0_4.fill (grid0.coords t) d4 (iblk m c 4 t)) (supp m c) (over (selfTerm m c) g))
        = win0_5.cut (grid0.coords t) (outBlk m c t)) :
    BodyObligationLoose (dats (F := F) m 0 c) (defs₀ (F := F)) Variants.none () Set.univ := fun t => by
  rw [bigSep_W0, bigSep_W0]
  simp only
  refine (show _ ⊢ _ from ?_ : _ ⊢ pointPre m c t).trans ((point_run m c t).trans (wp_mono _ _ _ fun _ => ?_))
  · unfold pointPre
    iintro ⟨HΦ, Ho, H0, H1, H2, H3, H4, ⟨%d5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists _; iexact H5
  unfold pointPost
  rw [show (dats m 0 c).Φ t.succ = PhiS m c (t.val + 1) t.isLt from rfl, PhiS_succ,
    show (dats m 0 c).owesAt () t.succ = (dats m 0 c).owesAt () t.castSucc from rfl,
    after0_0, after0_1, after0_2, after0_3, after0_4, after0_5]
  iintro ⟨%d4, %g, ⟨⟨HS0, HS1⟩, Hg⟩, Ho, H0, H1, H2, H3, H4, H5⟩
  isplitl [HS0 HS1 Hg]
  · isplitl [HS0 HS1]
    · isplitl [HS0]; · iexact HS0
      iexists g; iexact HS1
    iexact Hg
  isplitl [Ho]; · iexact Ho
  isplitl [H0]; · iexact H0
  isplitl [H1]; · iexact H1
  isplitl [H2]; · iexact H2
  isplitl [H3]; · iexact H3
  isplitl [H4]
  · iexists d4
    change _ ⊢ owns (c : Thread nD τ) (st0_4 t) fullShare (win0_4.fill (grid0.coords t) d4 (win0_4.cut (grid0.coords t) (adjBlk m c t)))
    rw [cut_adjBlk]; try iexact H4
  · iexists (outPay (grid0.coords t) (win0_4.fill (grid0.coords t) d4 (iblk m c 4 t)) (supp m c) (over (selfTerm m c) g))
    change _ ⊢ owns (c : Thread nD τ) (st0_5 t) fullShare (win0_5.fill (grid0.coords t)
      (outPay (grid0.coords t) (win0_4.fill (grid0.coords t) d4 (iblk m c 4 t)) (supp m c) (over (selfTerm m c) g))
      (win0_5.cut (grid0.coords t) (outBlk m c t)))
    rw [win0_5.fill_congr_cut (grid0.coords t) (hloc t d4 g)]; try iexact H5

/-! ## The invariant's two ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch arrays' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 35 := N_0; omega), PhiA_eq]
  iintro ⟨⟨HS0, ⟨%g, HS1⟩⟩, Hg⟩
  isplitl [HS0 HS1]
  · isplitl [HS0]; · iexists _; iexact HS0
    iexists _; iexact HS1
  iexact Hg

/-! ## The runs -/

set_option backward.isDefEq.respectTransparency.types false in
/-- Every weakly fair execution of @main terminates, every array of the pipeline ending at SOME contents the
    write-backs allow (the inputs: their entry contents) and every other unscoped buffer as the region found it. -/
theorem run_forget : θ_run defs (onTc (τ := τ) (main (F := F))) (s₀ m ρ)
    (Pipeline.RDat.FramePost (cfgs 0) (fun c => (dats m 0 c).toRForget fgt5) (V m)) :=
  Pipeline.RDat.θ_run_frame_track cfgs (0 : Fin 1) launch0 defs₀ Variants.none (fun c => (dats m 0 c).toRForget fgt5) m ρ main
    (hbody := fun c => (body_obligation_forget m c).toRForget)
    (hshare := fun c => ((dats m 0 c).toRForget fgt5).share_full fun _ => rfl)
    (howed := fun _ _ => rfl) (V := V m) (hmain := hmain m Variants.none) (hA := A_eq m) (hin := hin m) (hout := hout m)

/-- The frame: the five argument arrays end as launched. -/
theorem frame_forget : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Eq.mp (congrFun (((dats m 0 c).toRForget fgt5).ArrAt_in 0 rfl _) _) ((h c).1 0)).trans ((A_eq m c 0).trans (V_main_arg0 m c)),
      (Eq.mp (congrFun (((dats m 0 c).toRForget fgt5).ArrAt_in 4 rfl _) _) ((h c).1 4)).trans ((A_eq m c 4).trans (V_main_arg1 m c)),
      (Eq.mp (congrFun (((dats m 0 c).toRForget fgt5).ArrAt_in 1 rfl _) _) ((h c).1 1)).trans ((A_eq m c 1).trans (V_main_arg2 m c)),
      (Eq.mp (congrFun (((dats m 0 c).toRForget fgt5).ArrAt_in 2 rfl _) _) ((h c).1 2)).trans ((A_eq m c 2).trans (V_main_arg3 m c)),
      ((h c).2 main_arg4 (Pipeline.mem_restRefs_of main_arg4 (by decide) (by decide))).trans (V_main_arg4 m c)⟩) (run_forget m ρ)

set_option backward.isDefEq.respectTransparency.types false in
/-- With the exact obligation: every array of the pipeline ends at what the proof data computes. -/
theorem run_exact
    (hloc : ∀ (c : Dev nD) (t : Fin cfg0.N) (d4 : S288x10000.Idx → Elt F .f32) (g : S10080x128.Idx → Elt F .f32),
      win0_5.cut (grid0.coords t) (outPay (grid0.coords t) (win0_4.fill (grid0.coords t) d4 (iblk m c 4 t)) (supp m c) (over (selfTerm m c) g))
        = win0_5.cut (grid0.coords t) (outBlk m c t)) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation_exact m c (hloc c))
    (hshare := fun c => (dats m 0 c).share_full fun _ => rfl)
    (howed := fun _ _ => rfl) (V := V m) (hmain := hmain m Variants.none) (hA := A_eq m) (hin := hin m) (hout := hout m)

end Cert.Kernel.Body

end
-- ==== Proof.KIRuns.lean ====
/-
  The kernel body of the graph-convolution kernel, run once per control case, at any float instance.

  The body sees six staged blocks and two scratch arrays. At the grid's first point it computes the two
  products that every later point needs — the support `x · W` into the first scratch, and the self-loop term
  `x · W_loop + bias` into the first 10000 rows of the second scratch (which has 10080 rows, 35 blocks of 288:
  its last 80 rows are never written) — and at every point it stores, into the output block, the product of the
  adjacency block with the support plus the 288 rows of the second scratch that start at 288 times the point.
  Here: the pure functions those stores compute, how a buffer reads after them, and the two runs.
-/
import proofs.«172737_g28991029248529_cont_9to1_2130_16_alg».proof.Proof.Gen.KernelIdeal.Frame
import proofs.«172737_g28991029248529_cont_9to1_2130_16_alg».proof.Proof.Gen.KernelIdeal.Skeleton
import Idealize.ShloMosaic.Lib.WholeRead
import Idealize.ShloMosaic.Lib.WritesUnit
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

/-! ## The branch -/

/-- The body's one condition, from the grid coordinate: "this is the first point". -/
abbrev cond0 (i : grid0.Coords) : Prop :=
  (Scalar.cmpi .ne (Scalar.extui (Scalar.cmpi .eq (BitVec.ofNat 32 (i 0).val) 0#32)) 0#32) = 1#1

/-- It holds at point 0 and at no other of the 35. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → ℕ) = fun _ => 0 := funext fun a => by fin_cases a <;> rfl

/-! ## What the stores compute -/

/-- The 288 rows of the second scratch the point at coordinates `i` adds in: rows `288 i ‥ 288 i + 287`. -/
def rowsAt (i : grid0.Coords) (L : Vec F S10080x128 .f32) : Vec F S288x128 .f32 :=
  View.ld L (Rect.unit (s := S10080x128) (k0_off1 i) S288x128.size (k0_off1_inb i))

/-- The output block at coordinates `i`: the adjacency block times the support, plus those rows. -/
def outPay (i : grid0.Coords) (a : Vec F S288x10000 .f32) (S : Vec F S10000x128 .f32) (L : Vec F S10080x128 .f32) :
    Vec F S288x128 .f32 :=
  k0_pay3 a S (rowsAt i L)

/-- The second scratch after the first point's store: rows below 10000 from the stored value, the others as before. -/
def over (P : Vec F S10000x128 .f32) (g : Vec F S10080x128 .f32) : Vec F S10080x128 .f32 :=
  fun y => if h : 0 ≤ (y (0 : Fin 2)).val ∧ (y (0 : Fin 2)).val < 0 + 10000 then
      P (Rect.unitLocal (s := S10080x128) (off := ![0, 0]) (size := S10000x128.size) y (Rect.unit_rows_mem y rfl rfl h))
    else g y

/-! ## Reading a buffer after whole loads and stores -/

section Reads

variable {S : Shape} {sp : Space}

/-- A load of a whole buffer through the zero-offset rectangle of its own sizes reads its contents. -/
theorem readAt_whole {m : Memref sig .tc sp S .f32} (h : m.IsWhole) {off : Fin S.rank → ℕ} (hz : off = fun _ => 0)
    (inb : ∀ a, off a + S.size a ≤ S.size a) (X : S.Idx → Elt F .f32) :
    View.readAt (Elt F) m.view (Rect.unit (s := S) off S.size inb).toLoadRect (h.unread X) = X := by
  funext x
  rw [h.readAt_unread]
  exact congrFun (View.ld_unit_zero hz inb X) x

/-- One store through that rectangle leaves its payload. -/
theorem read_store_whole (v : View sig .tc sp S .f32) (f : v.ty.Contents (Elt F)) {off : Fin S.rank → ℕ} (hz : off = fun _ => 0)
    (inb : ∀ a, off a + S.size a ≤ S.size a) (w : S.Idx → Elt F .f32) :
    v.read (Elt F) (v.writes (Elt F) f [(⟨Rect.unit (s := S) off S.size inb, w⟩ : View.Piece (Elt F) S .f32)]) = w := by
  subst hz; exact View.read_writes_whole v f w

end Reads

/-- The load at the point's offset reads the point's rows of whatever the buffer reads. -/
theorem readAt_rows (m : Memref sig .tc .vmem S10080x128 .f32) (i : grid0.Coords) (inb) (f : m.view.ty.Contents (Elt F)) :
    View.readAt (Elt F) m.view (Rect.unit (s := S10080x128) (k0_off1 i) S288x128.size inb).toLoadRect f
      = rowsAt i (m.view.read (Elt F) f) := rfl

/-- The store of 10000 rows into the 10080-row scratch leaves `over`. -/
theorem read_over {m : Memref sig .tc .vmem S10080x128 .f32} (h : m.IsWhole) (w : Vec F S10000x128 .f32) (g : Vec F S10080x128 .f32) :
    m.view.read (Elt F) (m.view.writes (Elt F) (h.unread g)
      [(⟨Rect.unit (s := S10080x128) ![0, 0] S10000x128.size inb_S10080x128_S10000x128_0_0, w⟩ : View.Piece (Elt F) S10080x128 .f32)])
      = over w g := by
  funext y
  rw [View.read_writes_cons_rows (W := 10000) m.view _ inb_S10080x128_S10000x128_0_0 w [] y rfl rfl rfl]
  unfold over
  by_cases hc : 0 ≤ (y (0 : Fin 2)).val ∧ (y (0 : Fin 2)).val < 0 + 10000
  · rw [dif_pos hc, dif_pos hc]
  · rw [dif_neg hc, dif_neg hc, View.writes_nil]; exact congrFun (h.read_unread g) y

/-! ## The two runs -/

set_option maxHeartbeats 1000000 in
/-- At a point that is NOT the first: the six staged buffers and the two scratch arrays at any contents; the body
    leaves the output buffer at `outPay` of the adjacency buffer and the scratch arrays, everything else as it was. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S288x10000 .f32) (harg5 : arg5.IsWhole) (arg6 : Memref sig .tc .vmem S288x128 .f32) (harg6 : arg6.IsWhole)
    (arg7 : Memref sig .tc .vmem S10000x128 .f32) (harg7 : arg7.IsWhole) (arg8 : Memref sig .tc .vmem S10080x128 .f32) (harg8 : arg8.IsWhole)
    (hc0 : ¬cond0 i)
    (x1 : Vec F S10000x128 .f32) (x2 : Vec F S128x128 .f32) (x3 : Vec F S128x128 .f32) (x4 : Vec F S1x128 .f32) (x5 : Vec F S288x10000 .f32)
    (xs0 : Vec F S10000x128 .f32) (xs1 : Vec F S10080x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outPay i x5 xs0 xs1)
            ∗ owns (c : Thread nD τ) arg7 fullShare xs0 ∗ owns (c : Thread nD τ) arg8 fullShare xs1) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, %hf6, H6⟩, ⟨%fs0, %hfs0, HS0⟩, ⟨%fs1, %hfs1, HS1⟩, Hk⟩
  obtain rfl := harg1.eq_unread hf1; obtain rfl := harg2.eq_unread hf2; obtain rfl := harg3.eq_unread hf3
  obtain rfl := harg4.eq_unread hf4; obtain rfl := harg5.eq_unread hf5
  obtain rfl := harg7.eq_unread hfs0; obtain rfl := harg8.eq_unread hfs1
  sl_exec (disch := first | exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_store_whole _ _ hz2, readAt_whole harg5 hz2, readAt_whole harg7 hz2, readAt_rows, harg8.read_unread]
    rfl
  isplitl [HS0]
  · iexists _; isplitr; · ipureintro; exact harg7.read_unread _
    iexact HS0
  · iexists _; isplitr; · ipureintro; exact harg8.read_unread _
    iexact HS1

set_option maxHeartbeats 2000000 in
/-- At the FIRST point: the body also fills the first scratch with `k0_pay1` of the feature and weight buffers and the
    first 10000 rows of the second with `k0_pay2` of the feature, loop-weight and bias buffers, and the output block is
    `outPay` over the scratch arrays as it has just left them. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S288x10000 .f32) (harg5 : arg5.IsWhole) (arg6 : Memref sig .tc .vmem S288x128 .f32) (harg6 : arg6.IsWhole)
    (arg7 : Memref sig .tc .vmem S10000x128 .f32) (harg7 : arg7.IsWhole) (arg8 : Memref sig .tc .vmem S10080x128 .f32) (harg8 : arg8.IsWhole)
    (hc0 : cond0 i)
    (x1 : Vec F S10000x128 .f32) (x2 : Vec F S128x128 .f32) (x3 : Vec F S128x128 .f32) (x4 : Vec F S1x128 .f32) (x5 : Vec F S288x10000 .f32)
    (xs0 : Vec F S10000x128 .f32) (xs1 : Vec F S10080x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outPay i x5 (k0_pay1 x1 x2) (over (k0_pay2 x1 x3 x4) xs1))
            ∗ owns (c : Thread nD τ) arg7 fullShare (k0_pay1 x1 x2)
            ∗ owns (c : Thread nD τ) arg8 fullShare (over (k0_pay2 x1 x3 x4) xs1)) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, %hf6, H6⟩, ⟨%fs0, %hfs0, HS0⟩, ⟨%fs1, %hfs1, HS1⟩, Hk⟩
  obtain rfl := harg1.eq_unread hf1; obtain rfl := harg2.eq_unread hf2; obtain rfl := harg3.eq_unread hf3
  obtain rfl := harg4.eq_unread hf4; obtain rfl := harg5.eq_unread hf5
  obtain rfl := harg7.eq_unread hfs0; obtain rfl := harg8.eq_unread hfs1
  sl_exec (disch := first | exact hc0)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_store_whole _ _ hz2, readAt_whole harg5 hz2, View.readCov_unit_zero _ hz2, readAt_whole harg1 hz2,
      readAt_whole harg2 hz2, readAt_whole harg3 hz2, readAt_whole harg4 hz2, readAt_rows, read_over harg8]
    rfl
  isplitl [HS0]
  · iexists _; isplitr
    swap; · iexact HS0
    ipureintro
    rw [read_store_whole _ _ hz2, readAt_whole harg1 hz2, readAt_whole harg2 hz2]
  · iexists _; isplitr
    swap; · iexact HS1
    ipureintro
    rw [readAt_whole harg1 hz2, readAt_whole harg3 hz2, readAt_whole harg4 hz2, read_over harg8]

end Cert.KernelIdeal.Body

end
-- ==== Proof.KIData.lean ====
/-
  The proof data of the graph-convolution kernel's one pipeline, and its run, at any float instance.

  Between grid points the kernel carries two scratch arrays. After the first point the first holds the support
  `x · W` and the second holds `x · W_loop + bias` on its first 10000 rows; its last 80 rows are whatever the
  allocation held, so the invariant states them existentially. Windows 4 (the adjacency rows) and 5 (the result
  rows) overhang their arrays at the last point (35 blocks of 288 rows over 10000): there the fetch leaves rows
  208‥287 of the adjacency buffer at values nothing names, the body computes result rows from them, and the
  write-back drops those rows; so both windows are stated on the rows inside the array only.

  One run of the body per point (`point_run`) serves two obligations: one that says nothing of the result buffer
  (enough for "the argument arrays end unchanged"), and an exact one, which needs that a result row inside the
  array does not depend on the rows outside it (`hloc`: proved where the float operations are exact).
-/
import proofs.«172737_g28991029248529_cont_9to1_2130_16_alg».proof.Proof.KIRuns
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names -/

/-- The grid's first point. -/
abbrev t₀ : Fin cfg0.N := ⟨0, by decide⟩

/-- The two scratch arrays as memrefs. -/
abbrev scM0 : Memref sig .tc .vmem S10000x128 .f32 := Memref.whole cc0_scratch0
abbrev scM1 : Memref sig .tc .vmem S10080x128 .f32 := Memref.whole cc0_scratch1

/-- The class invariant with the scratch arrays as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The support `x · W`, from the feature and weight blocks the first point finds. -/
def supp (c : Dev nD) : Vec F S10000x128 .f32 := k0_pay1 (iblk m c 0 t₀) (iblk m c 1 t₀)

/-- The self-loop term `x · W_loop + bias`, from the feature, loop-weight and bias blocks the first point finds. -/
def selfTerm (c : Dev nD) : Vec F S10000x128 .f32 := k0_pay2 (iblk m c 0 t₀) (iblk m c 2 t₀) (iblk m c 3 t₀)

/-- The adjacency buffer at point `t`: its block on the rows inside the array, zero past them (never read back). -/
def adjBlk (c : Dev nD) (t : Fin cfg0.N) : Vec F S288x10000 .f32 :=
  win0_4.fill (grid0.coords t) (fun _ => Scalar.ofBits .f32 0#32) (iblk m c 4 t)

/-- The result buffer at point `t`, named at those fillers. -/
def outBlk (c : Dev nD) (t : Fin cfg0.N) : Vec F S288x128 .f32 :=
  outPay (grid0.coords t) (adjBlk m c t) (supp m c) (over (selfTerm m c) (fun _ => Scalar.ofBits .f32 0#32))

/-! ## The invariant -/

/-- Before point `n`: at first the class invariant (both scratch arrays at anything); afterwards the first scratch at
    the support and the second at the self-loop term on its first 10000 rows. -/
def PhiS (c : Dev nD) : (n : ℕ) → n ≤ cfg0.N → sProp 𝕄
  | 0, _ => Pipeline.ΦA spec0 c
  | _ + 1, _ => iprop(iprop(owns (c : Thread nD τ) scM0 fullShare (supp m c)
      ∗ (∃ g, owns (c : Thread nD τ) scM1 fullShare (over (selfTerm m c) g))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (supp m c)
      ∗ (∃ g, owns (c : Thread nD τ) scM1 fullShare (over (selfTerm m c) g))) ∗ (∃ r, prngReg c r)) := rfl

theorem PhiS_pos (c : Dev nD) (n : ℕ) (h : n ≤ cfg0.N) (hz : n ≠ 0) :
    PhiS m c n h = iprop(iprop(owns (c : Thread nD τ) scM0 fullShare (supp m c)
      ∗ (∃ g, owns (c : Thread nD τ) scM1 fullShare (over (selfTerm m c) g))) ∗ (∃ r, prngReg c r)) := by
  cases n with
  | zero => exact absurd rfl hz
  | succ n => rfl

/-! ## The proof data -/

/-- The arrays as the region finds them; after the body each input buffer at its block (the adjacency's filled out),
    the result's at `outBlk`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => adjBlk m c t
    | ⟨5, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = adjBlk m c t := by dsimp only [dats]
theorem after0_5 (c : Dev nD) (t : Fin cfg0.N) : (dats m 0 c).after 5 t = outBlk m c t := by dsimp only [dats]

/-- The four resident inputs are found at their blocks at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The adjacency buffer is fetched at every point: its block on the rows inside the array, `d` past them. -/
theorem before0_4 (c : Dev nD) (t : Fin cfg0.N) (d) :
    (dats m 0 c).before 4 t d = win0_4.fill (grid0.coords t) d (iblk m c 4 t) := by
  unfold Dat.before; rw [if_pos (fetch0_4 t)]; unfold Dat.fetched Dat.blockOf iblk; rw [A_eq]; try rfl

/-! ## The body at a point -/

/-- What the body is called with at point `t`: the result buffer at anything. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- What it returns: for some filler `d4` of the adjacency buffer and some tail `g` of the second scratch, the
    invariant's parts at `g`, the inputs in place, and the result buffer at `outPay` of exactly those. -/
def pointPost (c : Dev nD) (t : Fin cfg0.N) : sProp 𝕄 :=
  iprop(∃ d4 g, (iprop(owns (c : Thread nD τ) scM0 fullShare (supp m c) ∗ owns (c : Thread nD τ) scM1 fullShare (over (selfTerm m c) g))
      ∗ (∃ r, prngReg c r))
    ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (win0_4.fill (grid0.coords t) d4 (iblk m c 4 t))
    ∗ owns (c : Thread nD τ) (st0_5 t) fullShare
        (outPay (grid0.coords t) (win0_4.fill (grid0.coords t) d4 (iblk m c 4 t)) (supp m c) (over (selfTerm m c) g)))

set_option maxHeartbeats 4000000 in
/-- The body at any point: at the first it fills the scratch arrays from the blocks it finds (`run_first`), at the
    others it finds them as the invariant says (`run_later`); either way the result buffer is `outPay` of the
    adjacency buffer and the scratch arrays as they then are. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [before0_0, before0_1, before0_2, before0_3, before0_4]
  by_cases hz : t.val = 0
  · have hc : cond0 (grid0.coords t) := (hcond0 t).mpr hz
    have ht : t = t₀ := Fin.ext hz
    rw [PhiS_castSucc m c t, PhiS_zero m c _ _ hz, PhiA_eq]
    iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%X5, H5⟩⟩
    iapply (run_first (F := F) c (grid0.coords t) _ _ _ _ _ _ _ _ _ _ _ _ _ _ _ _ hc
      (iblk m c 0 t) (iblk m c 1 t) (iblk m c 2 t) (iblk m c 3 t) (win0_4.fill (grid0.coords t) d4 (iblk m c 4 t)) xs0 xs1 Set.univ _)
    isplitl [H0]; · iexact H0
    isplitl [H1]; · iexact H1
    isplitl [H2]; · iexact H2
    isplitl [H3]; · iexact H3
    isplitl [H4]; · iexact H4
    isplitl [H5]; · iexists X5; iexact H5
    isplitl [HS0]; · iexact HS0
    isplitl [HS1]; · iexact HS1
    iintro ⟨H0, H1, H2, H3, H4, H5, HS0, HS1⟩
    iexists d4; iexists xs1
    unfold supp selfTerm
    subst ht
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc : ¬cond0 (grid0.coords t) := fun h => hz ((hcond0 t).mp h)
    rw [PhiS_castSucc m c t, PhiS_pos m c _ _ hz]
    iintro ⟨⟨⟨HS0, ⟨%g, HS1⟩⟩, Hg⟩, Ho, ⟨%d0, H0⟩, ⟨%d1, H1⟩, ⟨%d2, H2⟩, ⟨%d3, H3⟩, ⟨%d4, H4⟩, ⟨%X5, H5⟩⟩
    iapply (run_later (F := F) c (grid0.coords t) _ _ _ _ _ _ _ _ _ _ _ _ _ _ _ _ hc
      (iblk m c 0 t) (iblk m c 1 t) (iblk m c 2 t) (iblk m c 3 t) (win0_4.fill (grid0.coords t) d4 (iblk m c 4 t))
      (supp m c) (over (selfTerm m c) g) Set.univ _)
    isplitl [H0]; · iexact H0
    isplitl [H1]; · iexact H1
    isplitl [H2]; · iexact H2
    isplitl [H3]; · iexact H3
    isplitl [H4]; · iexact H4
    isplitl [H5]; · iexists X5; iexact H5
    isplitl [HS0]; · iexact HS0
    isplitl [HS1]; · iexact HS1
    iintro ⟨H0, H1, H2, H3, H4, H5, HS0, HS1⟩
    iexists d4; iexists g
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

end Cert.KernelIdeal.Body

end
-- ==== Proof.KIFrame.lean ====
/-
  The two body obligations of the graph-convolution kernel's pipeline, its runs, and the frame.

  Both obligations are `point_run` with its post weakened. The forgetting one hands the result buffer back at
  anything, which is all that "the argument arrays end unchanged" needs, and holds at every float instance.
  The exact one hands it back agreeing with `outBlk` on the rows inside the array, given that such a row of the
  result does not depend on the adjacency rows past the array's end nor on the second scratch's unwritten tail.
-/
import proofs.«172737_g28991029248529_cont_9to1_2130_16_alg».proof.Proof.KIData
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents the frame does not read: the result's. -/
abbrev fgt5 : Fin 6 → Bool := fun | 0 => false | 1 => false | 2 => false | 3 => false | 4 => false | 5 => true | ⟨_ + 6, h⟩ => absurd h (Nat.not_lt.2 (Nat.le_add_left _ _))

/-- The adjacency buffer's rows inside the array, of the named filling: its block. -/
theorem cut_adjBlk (c : Dev nD) (t : Fin cfg0.N) : win0_4.cut (grid0.coords t) (adjBlk m c t) = iblk m c 4 t :=
  win0_4.cut_fill _ _ _

set_option maxHeartbeats 1000000 in
/-- The obligation that forgets the result buffer. -/
theorem body_obligation_forget (c : Dev nD) :
    BodyObligationLoose (dats (F := F) m 0 c) (defs₀ (F := F)) Variants.none () Set.univ fgt5 := fun t => by
  rw [bigSep_W0, bigSep_W0]
  simp only [fgt5]
  refine (point_run m c t).trans (wp_mono _ _ _ fun _ => ?_)
  unfold pointPost
  rw [show (dats m 0 c).Φ t.succ = PhiS m c (t.val + 1) t.isLt from rfl, PhiS_succ,
    show (dats m 0 c).owesAt () t.succ = (dats m 0 c).owesAt () t.castSucc from rfl,
    after0_0, after0_1, after0_2, after0_3, after0_4]
  iintro ⟨%d4, %g, ⟨⟨HS0, HS1⟩, Hg⟩, Ho, H0, H1, H2, H3, H4, H5⟩
  isplitl [HS0 HS1 Hg]
  · isplitl [HS0 HS1]
    · isplitl [HS0]; · iexact HS0
      iexists g; iexact HS1
    iexact Hg
  isplitl [Ho]; · iexact Ho
  isplitl [H0]; · iexact H0
  isplitl [H1]; · iexact H1
  isplitl [H2]; · iexact H2
  isplitl [H3]; · iexact H3
  isplitl [H4]
  · iexists d4
    change _ ⊢ owns (c : Thread nD τ) (st0_4 t) fullShare (win0_4.fill (grid0.coords t) d4 (win0_4.cut (grid0.coords t) (adjBlk m c t)))
    rw [cut_adjBlk]; try iexact H4
  · iexists _; iexact H5

set_option maxHeartbeats 1000000 in
/-- The exact obligation, given that the result's rows inside the array depend on neither filler. -/
theorem body_obligation_exact (c : Dev nD)
    (hloc : ∀ (t : Fin cfg0.N) (d4 : S288x10000.Idx → Elt F .f32) (g : S10080x128.Idx → Elt F .f32),
      win0_5.cut (grid0.coords t) (outPay (grid0.coords t) (win0_4.fill (grid0.coords t) d4 (iblk m c 4 t)) (supp m c) (over (selfTerm m c) g))
        = win0_5.cut (grid0.coords t) (outBlk m c t)) :
    BodyObligationLoose (dats (F := F) m 0 c) (defs₀ (F := F)) Variants.none () Set.univ := fun t => by
  rw [bigSep_W0, bigSep_W0]
  simp only
  refine (show _ ⊢ _ from ?_ : _ ⊢ pointPre m c t).trans ((point_run m c t).trans (wp_mono _ _ _ fun _ => ?_))
  · unfold pointPre
    iintro ⟨HΦ, Ho, H0, H1, H2, H3, H4, ⟨%d5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists _; iexact H5
  unfold pointPost
  rw [show (dats m 0 c).Φ t.succ = PhiS m c (t.val + 1) t.isLt from rfl, PhiS_succ,
    show (dats m 0 c).owesAt () t.succ = (dats m 0 c).owesAt () t.castSucc from rfl,
    after0_0, after0_1, after0_2, after0_3, after0_4, after0_5]
  iintro ⟨%d4, %g, ⟨⟨HS0, HS1⟩, Hg⟩, Ho, H0, H1, H2, H3, H4, H5⟩
  isplitl [HS0 HS1 Hg]
  · isplitl [HS0 HS1]
    · isplitl [HS0]; · iexact HS0
      iexists g; iexact HS1
    iexact Hg
  isplitl [Ho]; · iexact Ho
  isplitl [H0]; · iexact H0
  isplitl [H1]; · iexact H1
  isplitl [H2]; · iexact H2
  isplitl [H3]; · iexact H3
  isplitl [H4]
  · iexists d4
    change _ ⊢ owns (c : Thread nD τ) (st0_4 t) fullShare (win0_4.fill (grid0.coords t) d4 (win0_4.cut (grid0.coords t) (adjBlk m c t)))
    rw [cut_adjBlk]; try iexact H4
  · iexists (outPay (grid0.coords t) (win0_4.fill (grid0.coords t) d4 (iblk m c 4 t)) (supp m c) (over (selfTerm m c) g))
    change _ ⊢ owns (c : Thread nD τ) (st0_5 t) fullShare (win0_5.fill (grid0.coords t)
      (outPay (grid0.coords t) (win0_4.fill (grid0.coords t) d4 (iblk m c 4 t)) (supp m c) (over (selfTerm m c) g))
      (win0_5.cut (grid0.coords t) (outBlk m c t)))
    rw [win0_5.fill_congr_cut (grid0.coords t) (hloc t d4 g)]; try iexact H5

/-! ## The invariant's two ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch arrays' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 35 := N_0; omega), PhiA_eq]
  iintro ⟨⟨HS0, ⟨%g, HS1⟩⟩, Hg⟩
  isplitl [HS0 HS1]
  · isplitl [HS0]; · iexists _; iexact HS0
    iexists _; iexact HS1
  iexact Hg

/-! ## The runs -/

set_option backward.isDefEq.respectTransparency.types false in
/-- Every weakly fair execution of @main terminates, every array of the pipeline ending at SOME contents the
    write-backs allow (the inputs: their entry contents) and every other unscoped buffer as the region found it. -/
theorem run_forget : θ_run defs (onTc (τ := τ) (main (F := F))) (s₀ m ρ)
    (Pipeline.RDat.FramePost (cfgs 0) (fun c => (dats m 0 c).toRForget fgt5) (V m)) :=
  Pipeline.RDat.θ_run_frame_track cfgs (0 : Fin 1) launch0 defs₀ Variants.none (fun c => (dats m 0 c).toRForget fgt5) m ρ main
    (hbody := fun c => (body_obligation_forget m c).toRForget)
    (hshare := fun c => ((dats m 0 c).toRForget fgt5).share_full fun _ => rfl)
    (howed := fun _ _ => rfl) (V := V m) (hmain := hmain m Variants.none) (hA := A_eq m) (hin := hin m) (hout := hout m)

/-- The frame: the five argument arrays end as launched. -/
theorem frame_forget : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Eq.mp (congrFun (((dats m 0 c).toRForget fgt5).ArrAt_in 0 rfl _) _) ((h c).1 0)).trans ((A_eq m c 0).trans (V_main_arg0 m c)),
      (Eq.mp (congrFun (((dats m 0 c).toRForget fgt5).ArrAt_in 4 rfl _) _) ((h c).1 4)).trans ((A_eq m c 4).trans (V_main_arg1 m c)),
      (Eq.mp (congrFun (((dats m 0 c).toRForget fgt5).ArrAt_in 1 rfl _) _) ((h c).1 1)).trans ((A_eq m c 1).trans (V_main_arg2 m c)),
      (Eq.mp (congrFun (((dats m 0 c).toRForget fgt5).ArrAt_in 2 rfl _) _) ((h c).1 2)).trans ((A_eq m c 2).trans (V_main_arg3 m c)),
      ((h c).2 main_arg4 (Pipeline.mem_restRefs_of main_arg4 (by decide) (by decide))).trans (V_main_arg4 m c)⟩) (run_forget m ρ)

set_option backward.isDefEq.respectTransparency.types false in
/-- With the exact obligation: every array of the pipeline ends at what the proof data computes. -/
theorem run_exact
    (hloc : ∀ (c : Dev nD) (t : Fin cfg0.N) (d4 : S288x10000.Idx → Elt F .f32) (g : S10080x128.Idx → Elt F .f32),
      win0_5.cut (grid0.coords t) (outPay (grid0.coords t) (win0_4.fill (grid0.coords t) d4 (iblk m c 4 t)) (supp m c) (over (selfTerm m c) g))
        = win0_5.cut (grid0.coords t) (outBlk m c t)) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation_exact m c (hloc c))
    (hshare := fun c => (dats m 0 c).share_full fun _ => rfl)
    (howed := fun _ _ => rfl) (V := V m) (hmain := hmain m Variants.none) (hA := A_eq m) (hin := hin m) (hout := hout m)

end Cert.KernelIdeal.Body

end
-- ==== Proof.KIGeom.lean ====
/-
  Where the graph-convolution kernel's blocks sit in their arrays, and what they hold, where floats are extended reals.

  The four resident windows (features, weights, loop weights, the bias row) have one block, the whole array, at every
  point. The adjacency and result windows move down 288 rows per point, and at the last of the 35 points their block
  overhangs the 10000 rows and is cut to its first 208. The second scratch is read from row `288 t` at point `t`, and
  below row 10000 it holds what the first point stored.
-/
import proofs.«172737_g28991029248529_cont_9to1_2130_16_alg».proof.Proof.KIFrame
import Idealize.ShloMosaic.Lib.StableHlo.Run
import Idealize.ShloMosaic.Lib.ValueIdx
import Idealize.ShloMosaic.Lib.Pipeline.Value

set_option maxRecDepth 16384

noncomputable section

namespace Cert.KernelIdeal.IdealValue

open Cert.KernelIdeal Cert.KernelIdeal.Gen Cert.KernelIdeal.Body
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The five argument arrays, as vectors of extended reals -/

abbrev feat (c : Dev nD) : S10000x128.Idx → EReal := m ((c : Thread nD τ).loc main_arg0)
abbrev adjA (c : Dev nD) : S10000x10000.Idx → EReal := m ((c : Thread nD τ).loc main_arg1)
abbrev wgt (c : Dev nD) : S128x128.Idx → EReal := m ((c : Thread nD τ).loc main_arg2)
abbrev wgtLoop (c : Dev nD) : S128x128.Idx → EReal := m ((c : Thread nD τ).loc main_arg3)
abbrev bias (c : Dev nD) : S128.Idx → EReal := m ((c : Thread nD τ).loc main_arg4)

/-! ## Where the blocks sit -/

theorem idx0_0 : ∀ t : Fin cfg0.N, ∀ a, win0_0.index t a = 0 := (by decide +kernel : ∀ t : Fin grid0.N, ∀ a, win0_0.index t a = 0)
theorem idx0_1 : ∀ t : Fin cfg0.N, ∀ a, win0_1.index t a = 0 := (by decide +kernel : ∀ t : Fin grid0.N, ∀ a, win0_1.index t a = 0)
theorem idx0_2 : ∀ t : Fin cfg0.N, ∀ a, win0_2.index t a = 0 := (by decide +kernel : ∀ t : Fin grid0.N, ∀ a, win0_2.index t a = 0)
theorem idx0_3 : ∀ t : Fin cfg0.N, ∀ a, win0_3.index t a = 0 := (by decide +kernel : ∀ t : Fin grid0.N, ∀ a, win0_3.index t a = 0)

/-- The adjacency and result windows at point `t`: block row `t`, block column 0; both cut alike on the rows and not
    at all on the columns; the rows they move end inside the array, at the block's end or the array's; and the second
    scratch is read from row `288 t`. -/
theorem geom : ∀ t : Fin cfg0.N,
    win0_4.index t 0 = t.val ∧ win0_4.index t 1 = 0 ∧ win0_5.index t 0 = t.val ∧ win0_5.index t 1 = 0
    ∧ win0_4.xsize (grid0.coords t) 0 = win0_5.xsize (grid0.coords t) 0
    ∧ win0_4.xsize (grid0.coords t) 1 = 10000 ∧ win0_5.xsize (grid0.coords t) 1 = 128
    ∧ 288 * t.val + win0_5.xsize (grid0.coords t) 0 ≤ 10000
    ∧ (288 * t.val + 288 ≤ 10000 → win0_5.xsize (grid0.coords t) 0 = 288)
    ∧ (10000 < 288 * t.val + 288 → 288 * t.val + win0_5.xsize (grid0.coords t) 0 = 10000)
    ∧ k0_off1 (grid0.coords t) = ![288 * t.val, 0] :=
  (by decide +kernel : ∀ t : Fin grid0.N,
    win0_4.index t 0 = t.val ∧ win0_4.index t 1 = 0 ∧ win0_5.index t 0 = t.val ∧ win0_5.index t 1 = 0
    ∧ win0_4.xsize (grid0.coords t) 0 = win0_5.xsize (grid0.coords t) 0
    ∧ win0_4.xsize (grid0.coords t) 1 = 10000 ∧ win0_5.xsize (grid0.coords t) 1 = 128
    ∧ 288 * t.val + win0_5.xsize (grid0.coords t) 0 ≤ 10000
    ∧ (288 * t.val + 288 ≤ 10000 → win0_5.xsize (grid0.coords t) 0 = 288)
    ∧ (10000 < 288 * t.val + 288 → 288 * t.val + win0_5.xsize (grid0.coords t) 0 = 10000)
    ∧ k0_off1 (grid0.coords t) = ![288 * t.val, 0])

/-! ## The blocks are the argument arrays -/

/-- The feature window's block, at any point, is the feature array. -/
theorem iblk0 (c : Dev nD) (t : Fin cfg0.N) : (iblk m c 0 t : S10000x128.Idx → EReal) = m ((c : Thread nD τ).loc main_arg0) := by
  funext y
  show V m c main_arg0 (((cfg0.win 0).blk t).view.emb y) = _
  rw [V_main_arg0]
  refine congrArg _ (funext fun a => Fin.ext ?_)
  show win0_0.index t a * S10000x128.size a + 1 * (y a).val = (y a).val
  rw [idx0_0 t a]; omega

/-- The weight window's block is the weight array. -/
theorem iblk1 (c : Dev nD) (t : Fin cfg0.N) : (iblk m c 1 t : S128x128.Idx → EReal) = m ((c : Thread nD τ).loc main_arg2) := by
  funext y
  show V m c main_arg2 (((cfg0.win 1).blk t).view.emb y) = _
  rw [V_main_arg2]
  refine congrArg _ (funext fun a => Fin.ext ?_)
  show win0_1.index t a * S128x128.size a + 1 * (y a).val = (y a).val
  rw [idx0_1 t a]; omega

/-- The loop-weight window's block is the loop-weight array. -/
theorem iblk2 (c : Dev nD) (t : Fin cfg0.N) : (iblk m c 2 t : S128x128.Idx → EReal) = m ((c : Thread nD τ).loc main_arg3) := by
  funext y
  show V m c main_arg3 (((cfg0.win 2).blk t).view.emb y) = _
  rw [V_main_arg3]
  refine congrArg _ (funext fun a => Fin.ext ?_)
  show win0_2.index t a * S128x128.size a + 1 * (y a).val = (y a).val
  rw [idx0_2 t a]; omega

/-- What the region finds in the bias window's array: the bias, cast to one row by the host before the region. -/
theorem V_bias (c : Dev nD) :
    (V m c main_v0 : S1x128.Idx → EReal) = shapeCast S1x128 (m ((c : Thread nD τ).loc main_arg4)) shapeCasts_S128_S1x128 := by
  dsimp only [Gen.V, Gen.hostOps0]; after_results; rfl

/-- The bias window's block is that row. -/
theorem iblk3 (c : Dev nD) (t : Fin cfg0.N) :
    (iblk m c 3 t : S1x128.Idx → EReal) = shapeCast S1x128 (m ((c : Thread nD τ).loc main_arg4)) shapeCasts_S128_S1x128 := by
  funext y
  show V m c main_v0 (((cfg0.win 3).blk t).view.emb y) = _
  rw [V_bias]
  refine congrArg _ (funext fun a => Fin.ext ?_)
  show win0_3.index t a * S1x128.size a + 1 * (y a).val = (y a).val
  rw [idx0_3 t a]; omega

/-- The one row's entry `q` is the bias's entry `q`. -/
theorem biasRow_apply (b : S128.Idx → EReal) (q : Fin 128) :
    shapeCast S1x128 b shapeCasts_S128_S1x128 (ix2 (0 : Fin 1) q) = b (ix1 q) :=
  shapeCast_apply b shapeCasts_S128_S1x128 (ix2 (0 : Fin 1) q) (ix1 q) (by
    rw [Shape.rowMajor_val_one, Shape.rowMajor_val_two]
    show q.val = 0 * 128 + q.val
    omega)

/-- The support, over the argument arrays. -/
theorem supp_eq (c : Dev nD) :
    supp m c = k0_pay1 (F := Ideal) (m ((c : Thread nD τ).loc main_arg0)) (m ((c : Thread nD τ).loc main_arg2)) := by
  unfold supp; rw [iblk0, iblk1]

/-- The self-loop term, over the argument arrays. -/
theorem selfTerm_eq (c : Dev nD) :
    selfTerm m c = k0_pay2 (F := Ideal) (m ((c : Thread nD τ).loc main_arg0)) (m ((c : Thread nD τ).loc main_arg3))
      (shapeCast S1x128 (m ((c : Thread nD τ).loc main_arg4)) shapeCasts_S128_S1x128) := by
  unfold selfTerm; rw [iblk0, iblk2, iblk3]

/-! ## Reading the second scratch -/

/-- The point's rows of the scratch, at block row and column `y`, are the scratch at row `o + y 0`, the same column. -/
theorem rowsAt_apply (i : grid0.Coords) (L : S10080x128.Idx → EReal) (y : S288x128.Idx) (o : ℕ) (ho : k0_off1 i = ![o, 0])
    (z : S10080x128.Idx) (hz0 : (z 0).val = o + (y 0).val) (hz1 : (z 1).val = (y 1).val) : rowsAt (F := Ideal) i L y = L z := by
  unfold rowsAt
  show L ((Rect.unit (s := S10080x128) (k0_off1 i) S288x128.size (k0_off1_inb i)).emb y) = L z
  refine congrArg L (funext fun a => Fin.ext ?_)
  match a with
  | ⟨0, _⟩ =>
    show k0_off1 i 0 + 1 * (y 0).val = (z 0).val
    rw [ho]; show o + 1 * (y 0).val = (z 0).val; omega
  | ⟨1, _⟩ =>
    show k0_off1 i 1 + 1 * (y 1).val = (z 1).val
    rw [ho]; show 0 + 1 * (y 1).val = (z 1).val; omega

/-- Below row 10000 the scratch holds what the first point stored. -/
theorem over_inside (P : S10000x128.Idx → EReal) (g : S10080x128.Idx → EReal) (z : S10080x128.Idx) (r : Fin 10000) (q : Fin 128)
    (h0 : (z 0).val = r.val) (h1 : (z 1).val = q.val) : over (F := Ideal) P g z = P (ix2 r q) := by
  unfold over
  rw [dif_pos ⟨Nat.zero_le _, by have := r.isLt; omega⟩]
  refine congrArg P (funext fun a => Fin.ext ?_)
  match a with
  | ⟨0, _⟩ => show (z 0).val - 0 = r.val; omega
  | ⟨1, _⟩ => show (z 1).val - 0 = q.val; omega

/-! ## The adjacency block -/

/-- An entry of the adjacency block at point `t` is the adjacency array's entry at the block's offset plus the
    entry's place in the block. -/
theorem adj_read (c : Dev nD) (t : Fin cfg0.N) (j' : (win0_4.xblock (grid0.coords t)).Idx) (r k : Fin 10000)
    (h0 : win0_4.index t 0 * 288 + (j' ⟨0, Nat.zero_lt_two⟩).val = r.val)
    (h1 : win0_4.index t 1 * 10000 + (j' ⟨1, Nat.one_lt_two⟩).val = k.val) :
    iblk m c 4 t j' = adjA m c (ix2 r k) := by
  have e : iblk m c 4 t j' = V m c main_arg1 (((cfg0.win 4).blk t).view.emb j') := rfl
  refine e.trans ((congrFun (V_main_arg1 m c) _).trans (congrArg _ (funext fun a => Fin.ext ?_)))
  match a with
  | ⟨0, _⟩ =>
    show win0_4.index t 0 * 288 + 1 * (j' ⟨0, Nat.zero_lt_two⟩).val = r.val
    omega
  | ⟨1, _⟩ =>
    show win0_4.index t 1 * 10000 + 1 * (j' ⟨1, Nat.one_lt_two⟩).val = k.val
    omega

end Cert.KernelIdeal.IdealValue

end
-- ==== Proof.KIPay.lean ====
/-
  The three stored values of the graph-convolution kernel read at an index, where floats are extended reals.

  Each matrix product the body computes accumulates into a zero vector, so at an index it is the plain sum over
  the contracted coordinate of the operands' products: the support `x · W` at row `r`, column `q` is
  `∑ j, x[r, j] · W[j, q]`; the self-loop term adds the bias, broadcast along the rows; the result block at row
  `p`, column `q` is `∑ k, a[p, k] · S[k, q]` plus the addend at `[p, q]`. In particular a row of the result block
  depends on that row of the adjacency block and of the addend only.
-/
import proofs.«172737_g28991029248529_cont_9to1_2130_16_alg».proof.Proof.KIRuns
import Idealize.ShloMosaic.Lib.ValueIdx
import Idealize.ShloMosaic.Lib.Pipeline.Value
import Idealize.ShloMosaic.PureOps.Ideal.Laws

set_option maxRecDepth 16384

noncomputable section

namespace Cert.KernelIdeal.IdealValue

open Cert.KernelIdeal Cert.KernelIdeal.Gen Cert.KernelIdeal.Body
open Idealize.ShloMosaic Idealize.ShloMosaic.ValueIdx

/-! ## The two matrix products as sums -/

theorem lhsW_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem rhsW_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A [10000, 128] by [128, 128] product into zero, at row `r`, column `q`. -/
theorem featMatmul_apply (X : FVec Ideal S10000x128 .f32) (W : FVec Ideal S128x128 .f32) (r : Fin 10000) (q : Fin 128) :
    FloatOps.matmul dot_S10000x128_S128x128_S10000x128_1_0_0_1_n_n none X W (constant (F := Ideal) S10000x128 .f32 0x00000000#32) (ix2 r q)
      = ∑ j : Fin 128, X (ix2 r j) * W (ix2 j q) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r q) ((ValueIdx.contrEquiv1 dot_S10000x128_S128x128_S10000x128_1_0_0_1_n_n 128 rfl rfl).symm k) = ix2 r k := funext fun a => Fin.ext (by
    match a with
    | ⟨0, _⟩ => exact lhsW_0 _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 r q) ((ValueIdx.contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact rhsW_1 _ _)
  rw [el, er]

theorem lhsA_0 (i : S288x128.Idx) (q : dot_S288x10000_S10000x128_S288x128_1_0_0_1_n_n.contr.Idx) : (dot_S288x10000_S10000x128_S288x128_1_0_0_1_n_n.lhsIdx i q 0).val = (i 0).val := by
  unfold DotDims.lhsIdx
  rw [dif_neg (show ¬(0 : Fin S288x10000.rank) ∈ dot_S288x10000_S10000x128_S288x128_1_0_0_1_n_n.lhsBatch by decide), dif_pos (show (0 : Fin S288x10000.rank) ∈ dot_S288x10000_S10000x128_S288x128_1_0_0_1_n_n.lhsNonContracting by decide)]
  rfl
theorem rhsA_1 (i : S288x128.Idx) (q : dot_S288x10000_S10000x128_S288x128_1_0_0_1_n_n.contr.Idx) : (dot_S288x10000_S10000x128_S288x128_1_0_0_1_n_n.rhsIdx i q 1).val = (i 1).val := by
  unfold DotDims.rhsIdx
  rw [dif_neg (show ¬(1 : Fin S10000x128.rank) ∈ dot_S288x10000_S10000x128_S288x128_1_0_0_1_n_n.rhsBatch by decide), dif_pos (show (1 : Fin S10000x128.rank) ∈ dot_S288x10000_S10000x128_S288x128_1_0_0_1_n_n.rhsNonContracting by decide)]
  rfl

/-- A [288, 10000] by [10000, 128] product into zero, at row `p`, column `q`. -/
theorem adjMatmul_apply (a : FVec Ideal S288x10000 .f32) (S : FVec Ideal S10000x128 .f32) (p : Fin 288) (q : Fin 128) :
    FloatOps.matmul dot_S288x10000_S10000x128_S288x128_1_0_0_1_n_n none a S (constant (F := Ideal) S288x128 .f32 0x00000000#32) (ix2 p q)
      = ∑ k : Fin 10000, a (ix2 p k) * S (ix2 k q) := by
  rw [Ideal.matmul_constant_zero_apply, ← Equiv.sum_comp (ValueIdx.contrEquiv1 dot_S288x10000_S10000x128_S288x128_1_0_0_1_n_n 10000 rfl rfl).symm]
  refine Finset.sum_congr rfl fun k _ => ?_
  have hk := ValueIdx.contrEquiv1_symm_val dot_S288x10000_S10000x128_S288x128_1_0_0_1_n_n 10000 rfl rfl k
  have el : dot_S288x10000_S10000x128_S288x128_1_0_0_1_n_n.lhsIdx (ix2 p q) ((ValueIdx.contrEquiv1 dot_S288x10000_S10000x128_S288x128_1_0_0_1_n_n 10000 rfl rfl).symm k) = ix2 p k := funext fun a => Fin.ext (by
    match a with
    | ⟨0, _⟩ => exact lhsA_0 _ _
    | ⟨1, _⟩ => exact (dot_S288x10000_S10000x128_S288x128_1_0_0_1_n_n.lhsIdx_val_of_single rfl _ _).trans hk)
  have er : dot_S288x10000_S10000x128_S288x128_1_0_0_1_n_n.rhsIdx (ix2 p q) ((ValueIdx.contrEquiv1 dot_S288x10000_S10000x128_S288x128_1_0_0_1_n_n 10000 rfl rfl).symm k) = ix2 k q := funext fun a => Fin.ext (by
    match a with
    | ⟨0, _⟩ => exact (dot_S288x10000_S10000x128_S288x128_1_0_0_1_n_n.rhsIdx_val_of_single rfl _ _).trans hk
    | ⟨1, _⟩ => exact rhsA_1 _ _)
  rw [el, er]

/-! ## The three stored values -/

/-- The support at row `r`, column `q`. -/
theorem pay1_apply (X : Vec Ideal S10000x128 .f32) (W : Vec Ideal S128x128 .f32) (r : Fin 10000) (q : Fin 128) :
    k0_pay1 (F := Ideal) X W (ix2 r q) = ∑ j : Fin 128, X (ix2 r j) * W (ix2 j q) := by
  unfold k0_pay1
  rw [shapeCast_self]
  exact featMatmul_apply X W r q

/-- The self-loop term at row `r`, column `q`: the product plus the bias row's entry `q`. -/
theorem pay2_apply (X : Vec Ideal S10000x128 .f32) (Wl : Vec Ideal S128x128 .f32) (B : Vec Ideal S1x128 .f32) (r : Fin 10000) (q : Fin 128) :
    k0_pay2 (F := Ideal) X Wl B (ix2 r q) = (∑ j : Fin 128, X (ix2 r j) * Wl (ix2 j q)) + B (ix2 (0 : Fin 1) q) := by
  unfold k0_pay2
  rw [shapeCast_self, addf_apply]
  refine congrArg₂ (· + ·) (featMatmul_apply X Wl r q) ?_
  rw [broadcastTo_apply _ broadcasts_S1x128_S10000x128 (ix2 r q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)]), shapeCast_self]

/-- The result block at row `p`, column `q`: the adjacency row against the support's column, plus the addend. -/
theorem pay3_apply (a : Vec Ideal S288x10000 .f32) (S : Vec Ideal S10000x128 .f32) (v : Vec Ideal S288x128 .f32) (p : Fin 288) (q : Fin 128) :
    k0_pay3 (F := Ideal) a S v (ix2 p q) = (∑ k : Fin 10000, a (ix2 p k) * S (ix2 k q)) + v (ix2 p q) := by
  unfold k0_pay3
  rw [addf_apply]
  exact congrArg (· + v (ix2 p q)) (adjMatmul_apply a S p q)

end Cert.KernelIdeal.IdealValue

end
-- ==== Proof.Spec.lean ====
/-
  The graph-convolution layer as one function of its argument arrays, over the extended reals.

  For node features `x` [10000, 128], a dense adjacency `A` [10000, 10000], weights `W`, `W_loop` [128, 128] and a bias
  `b` [128], the layer's output at node `r`, channel `q` is

      ∑ k, A[r, k] · (∑ j, x[k, j] · W[j, q])  +  ( ∑ j, x[r, j] · W_loop[j, q]  +  b[q] ).

  The kernel groups the sum this way (it keeps `x · W_loop + b` in a scratch array); the reference adds the bias last,
  `(A · (x · W) + x · W_loop) + b`. The two groupings agree by associativity of addition, which holds on the extended
  reals without any finiteness assumption.
-/
import Idealize.ShloMosaic.PureOps.Ideal
import Idealize.ShloMosaic.Lib.ValueIdx

noncomputable section

namespace Cert.GraphConv

open Idealize.ShloMosaic Idealize.ShloMosaic.ValueIdx

/-- The layer's output, grouped as the kernel computes it. -/
def layer (x : (⟨2, ![10000, 128]⟩ : Shape).Idx → EReal) (A : (⟨2, ![10000, 10000]⟩ : Shape).Idx → EReal)
    (W Wl : (⟨2, ![128, 128]⟩ : Shape).Idx → EReal) (b : (⟨1, ![128]⟩ : Shape).Idx → EReal) (r : Fin 10000) (q : Fin 128) : EReal :=
  (∑ k : Fin 10000, A (ix2 r k) * ∑ j : Fin 128, x (ix2 k j) * W (ix2 j q))
    + ((∑ j : Fin 128, x (ix2 r j) * Wl (ix2 j q)) + b (ix1 q))

/-- The same with the bias added last, as the reference computes it. -/
theorem layer_eq_bias_last (x : (⟨2, ![10000, 128]⟩ : Shape).Idx → EReal) (A : (⟨2, ![10000, 10000]⟩ : Shape).Idx → EReal)
    (W Wl : (⟨2, ![128, 128]⟩ : Shape).Idx → EReal) (b : (⟨1, ![128]⟩ : Shape).Idx → EReal) (r : Fin 10000) (q : Fin 128) :
    ((∑ k : Fin 10000, A (ix2 r k) * ∑ j : Fin 128, x (ix2 k j) * W (ix2 j q)) + ∑ j : Fin 128, x (ix2 r j) * Wl (ix2 j q)) + b (ix1 q)
      = layer x A W Wl b r q := by
  unfold layer; rw [add_assoc]

/-- The layer's output as an array: entry `i` is node `i 0`, channel `i 1`. -/
def layerArr (x : (⟨2, ![10000, 128]⟩ : Shape).Idx → EReal) (A : (⟨2, ![10000, 10000]⟩ : Shape).Idx → EReal)
    (W Wl : (⟨2, ![128, 128]⟩ : Shape).Idx → EReal) (b : (⟨1, ![128]⟩ : Shape).Idx → EReal) :
    (⟨2, ![10000, 128]⟩ : Shape).Idx → EReal :=
  fun i => layer x A W Wl b ⟨(i 0).val, idx2_lt0 i⟩ ⟨(i 1).val, idx2_lt1 i⟩

end Cert.GraphConv

end
-- ==== Proof.KIValue.lean ====
/-
  What the graph-convolution kernel's result array holds after the run, where floats are extended reals.

  Point `t` of the 35 writes back rows `288 t ‥` of the result: all 288 of them, except at the last point, whose block
  overhangs the 10000 rows and is cut to its first 208. A result row inside the array is the adjacency row against the
  support plus the self-loop term's row, and the adjacency row, fetched from inside the array, and that row of the
  second scratch, among the 10000 written at the first point, are both named: so the row is the layer's output there,
  whatever the fetch left in the buffer's tail and whatever the scratch's last 80 rows held. The blocks cover the array
  (row `r` is in block `r / 288`), so the array ends at the layer's output.
-/
import proofs.«172737_g28991029248529_cont_9to1_2130_16_alg».proof.Proof.KIGeom
import proofs.«172737_g28991029248529_cont_9to1_2130_16_alg».proof.Proof.KIPay
import proofs.«172737_g28991029248529_cont_9to1_2130_16_alg».proof.Proof.Spec

set_option maxRecDepth 16384

noncomputable section

namespace Cert.KernelIdeal.IdealValue

open Cert.KernelIdeal Cert.KernelIdeal.Gen Cert.KernelIdeal.Body
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## A result row inside the array -/

/-- The array row of row `j 0` of point `t`'s block. -/
def rowOf (t : Fin cfg0.N) (j : (win0_5.xblock (grid0.coords t)).Idx) : Fin 10000 :=
  ⟨288 * t.val + (j 0).val, by
    have h := (geom t).2.2.2.2.2.2.2.1
    have hj : (j 0).val < win0_5.xsize (grid0.coords t) 0 := (j 0).isLt
    omega⟩

/-- Its column. -/
def colOf (t : Fin cfg0.N) (j : (win0_5.xblock (grid0.coords t)).Idx) : Fin 128 :=
  ⟨(j 1).val, by
    have h := (geom t).2.2.2.2.2.2.1
    have hj : (j 1).val < win0_5.xsize (grid0.coords t) 1 := (j 1).isLt
    omega⟩

/-- An adjacency-buffer entry on a row the fetch moved is the adjacency array's entry, whatever the filler. -/
theorem adj_fill (c : Dev nD) (t : Fin cfg0.N) (d4 : S288x10000.Idx → EReal) (p : Fin 288) (k r : Fin 10000)
    (hp : p.val < win0_4.xsize (grid0.coords t) 0) (hk : k.val < win0_4.xsize (grid0.coords t) 1)
    (hr : win0_4.index t 0 * 288 + p.val = r.val) (hc : win0_4.index t 1 * 10000 + k.val = k.val) :
    win0_4.fill (grid0.coords t) d4 (iblk m c 4 t) (ix2 p k) = adjA m c (ix2 r k) := by
  have hmv : win0_4.moved (grid0.coords t) (ix2 p k) = true :=
    (win0_4.moved_iff (grid0.coords t) (ix2 p k)).mpr (Fin.forall_fin_two.mpr ⟨hp, hk⟩)
  unfold Window.fill
  rw [dif_pos hmv]
  exact adj_read m c t (fun a => ⟨((ix2 p k : S288x10000.Idx) a).val, (win0_4.moved_iff (grid0.coords t) (ix2 p k)).mp hmv a⟩) r k hr hc

/-- The support's entry: the feature row against the weight column. -/
theorem supp_apply (c : Dev nD) (k : Fin 10000) (q : Fin 128) :
    supp m c (ix2 k q) = ∑ j : Fin 128, feat m c (ix2 k j) * wgt m c (ix2 j q) := by
  rw [supp_eq, pay1_apply]

/-- The addend of block row `p` at point `t`, when that is array row `r` below 10000: the self-loop term's row `r`,
    whatever the second scratch's tail holds. -/
theorem self_row (c : Dev nD) (t : Fin cfg0.N) (g : S10080x128.Idx → EReal) (p : Fin 288) (q : Fin 128) (r : Fin 10000)
    (hr : r.val = 288 * t.val + p.val) (hoff : k0_off1 (grid0.coords t) = ![288 * t.val, 0]) :
    rowsAt (F := Ideal) (grid0.coords t) (over (selfTerm m c) g) (ix2 p q)
      = (∑ j : Fin 128, feat m c (ix2 r j) * wgtLoop m c (ix2 j q)) + bias m c (ix1 q) := by
  have hz : 288 * t.val + p.val < 10080 := by have := r.isLt; omega
  rw [rowsAt_apply (grid0.coords t) (over (selfTerm m c) g) (ix2 p q) (288 * t.val) hoff
      (ix2 (⟨288 * t.val + p.val, hz⟩ : Fin 10080) q) rfl rfl,
    over_inside (selfTerm m c) g _ r q hr.symm rfl, selfTerm_eq, pay2_apply, biasRow_apply]

/-- THE ROW: at a row the write-back moves, the result buffer holds the layer's output at that row of the array —
    whatever filled the adjacency buffer past the array's end (`d4`) and the second scratch past row 10000 (`g`). -/
theorem outPay_inside (c : Dev nD) (t : Fin cfg0.N) (d4 : S288x10000.Idx → EReal) (g : S10080x128.Idx → EReal)
    (j : (win0_5.xblock (grid0.coords t)).Idx) :
    outPay (F := Ideal) (grid0.coords t) (win0_4.fill (grid0.coords t) d4 (iblk m c 4 t)) (supp m c) (over (selfTerm m c) g)
        (win0_5.xinj (grid0.coords t) j)
      = Cert.GraphConv.layer (feat m c) (adjA m c) (wgt m c) (wgtLoop m c) (bias m c) (rowOf t j) (colOf t j) := by
  obtain ⟨hi4r, hi4c, hi5r, hi5c, hxs, hx4c, hx5c, hle, -, -, hoff⟩ := geom t
  have hj0 : (j 0).val < win0_5.xsize (grid0.coords t) 0 := (j 0).isLt
  have hp : (j 0).val < 288 := lt_of_lt_of_le hj0 (win0_5.xsize_le (grid0.coords t) 0)
  have hx : win0_5.xinj (grid0.coords t) j = ix2 (⟨(j 0).val, hp⟩ : Fin 288) (colOf t j) :=
    funext (Fin.forall_fin_two.mpr ⟨Fin.ext rfl, Fin.ext rfl⟩)
  have hrow : (rowOf t j).val = 288 * t.val + (j 0).val := rfl
  rw [hx]; unfold outPay
  rw [pay3_apply]
  unfold Cert.GraphConv.layer
  refine congrArg₂ (· + ·) (Finset.sum_congr rfl fun k _ => congrArg₂ (· * ·) ?_ ?_) ?_
  · exact adj_fill m c t d4 ⟨(j 0).val, hp⟩ k (rowOf t j) (by rw [hxs]; exact hj0) (by rw [hx4c]; exact k.isLt)
      (by rw [hi4r, hrow]; show t.val * 288 + (j 0).val = _; omega) (by rw [hi4c]; omega)
  · exact supp_apply m c k (colOf t j)
  · exact self_row m c t g ⟨(j 0).val, hp⟩ (colOf t j) (rowOf t j) hrow hoff

/-- So a result row inside the array does not depend on either filler. -/
theorem hloc (c : Dev nD) (t : Fin cfg0.N) (d4 : S288x10000.Idx → Elt Ideal .f32) (g : S10080x128.Idx → Elt Ideal .f32) :
    win0_5.cut (grid0.coords t) (outPay (grid0.coords t) (win0_4.fill (grid0.coords t) d4 (iblk m c 4 t)) (supp m c) (over (selfTerm m c) g))
      = win0_5.cut (grid0.coords t) (outBlk m c t) :=
  funext fun j => (outPay_inside m c t d4 g j).trans (outPay_inside m c t _ _ j).symm

/-! ## The result array -/

/-- The layer's output over the argument arrays as launched: what the result array ends holding. -/
def result (c : Dev nD) : Buf (Elt Ideal) ((c : Thread nD τ).loc main_v1) :=
  Cert.GraphConv.layerArr (feat m c) (adjA m c) (wgt m c) (wgtLoop m c) (bias m c)

/-- What point `t` writes back is its block of the layer's output. -/
theorem flushed_eq (c : Dev nD) (t : Fin cfg0.N) :
    (dats m 0 c).flushed 5 t = ((cfg0.win 5).blk t).view.read (Elt Ideal) (result m c) := by
  obtain ⟨-, -, hi5r, hi5c, -, -, -, -, -, -, -⟩ := geom t
  funext j
  show (cfg0.win 5).cut (cfg0.grid.coords t) ((dats m 0 c).after 5 t) j = result m c (((cfg0.win 5).blk t).view.emb j)
  rw [after0_5]
  refine (outPay_inside m c t _ _ j).trans ?_
  unfold result Cert.GraphConv.layerArr
  refine congrArg₂ (Cert.GraphConv.layer _ _ _ _ _) (Fin.ext ?_) (Fin.ext ?_)
  · show 288 * t.val + (j 0).val = win0_5.index t 0 * 288 + 1 * (j 0).val
    rw [hi5r]; omega
  · show (j 1).val = win0_5.index t 1 * 128 + 1 * (j 1).val
    rw [hi5c]; omega

/-- Every row of the result is in the block of the point `row / 288`. -/
theorem cover (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0).val < 10000 := (i 0).isLt
  have h1 : (i 1).val < 128 := (i 1).isLt
  have hN : (i 0).val / 288 < cfg0.N := by show _ < 35; omega
  refine ⟨⟨(i 0).val / 288, hN⟩, flush0_5 _, ?_⟩
  obtain ⟨-, -, hi5r, hi5c, -, -, hx5c, -, hfull, hcut, -⟩ := geom ⟨(i 0).val / 288, hN⟩
  show i ∈ ((View.whole main_v1).slice (win0_5.rect ⟨(i 0).val / 288, hN⟩)).set
  rw [View.set_slice_whole, Rect.mem_set_unit]
  refine Fin.forall_fin_two.mpr ⟨?_, ?_⟩
  · show win0_5.index ⟨(i 0).val / 288, hN⟩ 0 * 288 ≤ (i 0).val
      ∧ (i 0).val < win0_5.index ⟨(i 0).val / 288, hN⟩ 0 * 288 + win0_5.xsize (grid0.coords ⟨(i 0).val / 288, hN⟩) 0
    rw [hi5r]
    dsimp only at hfull hcut ⊢
    omega
  · show win0_5.index ⟨(i 0).val / 288, hN⟩ 1 * 128 ≤ (i 1).val
      ∧ (i 1).val < win0_5.index ⟨(i 0).val / 288, hN⟩ 1 * 128 + win0_5.xsize (grid0.coords ⟨(i 0).val / 288, hN⟩) 1
    rw [hi5c, hx5c]; omega

/-- The result array after the run is the layer's output. -/
theorem final (c : Dev nD) : (dats m 0 c).arrAt 5 cfg0.N = result m c :=
  (dats m 0 c).arrAt_eq_of_cover 5 (result m c) (fun t _ => flushed_eq m c t) (cover c)

/-! ## The run -/

/-- Every weakly fair execution of the idealized kernel terminates with the result array at the layer's output and the
    five argument arrays as launched. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans (final m c),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c)⟩)
    (run_exact m ρ (hloc m))

end Cert.KernelIdeal.IdealValue

end
-- ==== Proof.RefValue.lean ====
/-
  The reference of the graph-convolution kernel, read at an index where floats are extended reals.

  The reference computes `(A · (x · W) + x · W_loop) + b`, the bias broadcast along the rows in two steps; each product
  is the plain sum over the contracted coordinate. At node `r`, channel `q` that is the layer's output with the bias
  added last, which is the layer's output as the kernel groups it.
-/
import proofs.«172737_g28991029248529_cont_9to1_2130_16_alg».proof.Proof.Gen.ReferenceIdeal.Read
import proofs.«172737_g28991029248529_cont_9to1_2130_16_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The node of an output index. -/
abbrev node (i : S10000x128.Idx) : Fin 10000 := ⟨(i 0).val, idx2_lt0 i⟩
/-- Its channel. -/
abbrev chan (i : S10000x128.Idx) : Fin 128 := ⟨(i 1).val, idx2_lt1 i⟩

/-! The index functions of the generated reading are the coordinate constructors. -/

theorem adj_idx (i : S10000x128.Idx) (k : Fin 10000) : lidx_main_v2 i k = ix2 (node i) k :=
  funext fun a => Fin.ext (by match a with | ⟨0, _⟩ => rfl | ⟨1, _⟩ => rfl)
theorem supp_feat_idx (i : S10000x128.Idx) (k : Fin 10000) (j : Fin 128) : lidx_main_v0 (ridx_main_v2 i k) j = ix2 k j :=
  funext fun a => Fin.ext (by match a with | ⟨0, _⟩ => rfl | ⟨1, _⟩ => rfl)
theorem supp_w_idx (i : S10000x128.Idx) (k : Fin 10000) (j : Fin 128) : ridx_main_v0 (ridx_main_v2 i k) j = ix2 j (chan i) :=
  funext fun a => Fin.ext (by match a with | ⟨0, _⟩ => rfl | ⟨1, _⟩ => rfl)
theorem loop_feat_idx (i : S10000x128.Idx) (j : Fin 128) : lidx_main_v1 i j = ix2 (node i) j :=
  funext fun a => Fin.ext (by match a with | ⟨0, _⟩ => rfl | ⟨1, _⟩ => rfl)
theorem loop_w_idx (i : S10000x128.Idx) (j : Fin 128) : ridx_main_v1 i j = ix2 j (chan i) :=
  funext fun a => Fin.ext (by match a with | ⟨0, _⟩ => rfl | ⟨1, _⟩ => rfl)
theorem bias_idx (i : S10000x128.Idx) : idx_main_v4 (idx_main_v5 i) = ix1 (chan i) :=
  funext fun a => Fin.ext (by match a with | ⟨0, _⟩ => rfl)

/-- The reference's result at an index is the layer's output there. -/
theorem result_apply (x0 : (⟨S10000x128, .f32⟩ : BufTy).Contents (Elt Ideal)) (x1 : (⟨S10000x10000, .f32⟩ : BufTy).Contents (Elt Ideal))
    (x2 x3 : (⟨S128x128, .f32⟩ : BufTy).Contents (Elt Ideal)) (x4 : (⟨S128, .f32⟩ : BufTy).Contents (Elt Ideal)) (i : S10000x128.Idx) :
    val_main_v6 (F := Ideal) x0 x1 x2 x3 x4 i = Cert.GraphConv.layer x0 x1 x2 x3 x4 (node i) (chan i) := by
  rw [val_main_v6_apply, val_main_v3_apply, val_main_v2_apply, val_main_v1_apply, val_main_v5_apply, val_main_v4_apply]
  simp only [val_main_v0_apply, Ideal.addf_def, adj_idx, supp_feat_idx, supp_w_idx, loop_feat_idx, loop_w_idx, bias_idx]
  exact Cert.GraphConv.layer_eq_bias_last x0 x1 x2 x3 x4 (node i) (chan i)

end Cert.ReferenceIdeal.RefValue

end
-- ==== Proof.lean ====
/-
  A dense graph-convolution layer, fused into one kernel, against its plain reference.

  For node features `x` [10000, 128], a dense adjacency `A` [10000, 10000], weights `W`, `W_loop` [128, 128] and a bias
  `b` [128], both programs compute `A · (x · W) + x · W_loop + b`. The kernel walks the adjacency in 35 blocks of 288
  rows; at the first block it computes `x · W` and `x · W_loop + b` once into two scratch arrays that stay resident, and
  every block stores `A_block · (x · W)` plus its 288 rows of the second. The reference adds the bias last. Where floats
  are extended reals and every operation is exact the two results are equal entry by entry, by associativity of addition
  alone: no finiteness of the inputs is used.

  The last block overhangs the 10000 rows by 80. The rows of the adjacency buffer past the array's end, the last 80
  rows of the second scratch (never written) and the result rows computed from them hold values nothing names; the
  write-back drops those result rows. The frames (each program terminates, faults nowhere, leaves its arguments
  unchanged) therefore say nothing of the result buffer's contents; the value claim shows that a result row inside the
  array does not depend on the unnamed rows (Proof/KIValue.lean, `outPay_inside`).

  Modules: Proof/KRuns, KIRuns (the kernel body's two control cases run once each, at any float instance); KData,
  KIData (the proof data of the pipeline and the body at a point); KFrame, KIFrame (the body obligations and the runs);
  KIPay (the stored values at an index as sums); KIGeom (where the blocks sit and what they hold); KIValue (the result
  array after the run); Spec (the layer as one function of its arguments); RefValue (the reference is that function).
  The K… modules are about the kernel as printed, the KI… ones about its idealization: the same text.
-/
import proofs.«172737_g28991029248529_cont_9to1_2130_16_alg».proof.Defs
import proofs.«172737_g28991029248529_cont_9to1_2130_16_alg».proof.Proof.KFrame
import proofs.«172737_g28991029248529_cont_9to1_2130_16_alg».proof.Proof.KIValue
import proofs.«172737_g28991029248529_cont_9to1_2130_16_alg».proof.Proof.RefValue
import proofs.«172737_g28991029248529_cont_9to1_2130_16_alg».proof.Proof.Gen.Kernel
import proofs.«172737_g28991029248529_cont_9to1_2130_16_alg».proof.Proof.Gen.KernelIdeal
import proofs.«172737_g28991029248529_cont_9to1_2130_16_alg».proof.Proof.Gen.ReferenceIdeal
import proofs.«172737_g28991029248529_cont_9to1_2130_16_alg».proof.Proof.Gen.Pre_finite_inputs
import Idealize.ShloMosaic.Adequacy
import Idealize.ShloMosaic.Init

noncomputable section

namespace Cert.Proof

open Idealize.ShloMosaic Idealize.SL.Sem

/-- The kernel as printed runs and leaves its five arguments unchanged. -/
theorem frame_k : Cert.frame_Kernel := fun m ρ _ => Cert.Kernel.Body.frame_forget (F := Bits) m ρ

/-- So does its idealization. -/
theorem frame_ki : Cert.frame_KernelIdeal := fun m ρ _ => Cert.KernelIdeal.Body.frame_forget (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer's output over those arguments. -/
theorem algebraic : Cert.algebraic_KernelIdeal_ReferenceIdeal := by
  intro m ρ m' ρ' _ hagree
  refine ⟨fun c => Cert.KernelIdeal.IdealValue.result m c, Cert.KernelIdeal.IdealValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  funext i
  exact Cert.ReferenceIdeal.RefValue.result_apply _ _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
